-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S2048x1024_d0 : Shape.Concatenates [S1024x1024, S1024x1024] S2048x1024 0
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S2048x1024_S512x2048_1_1_0_0_n_n_wf : DotDims.WF S512x1024 S2048x1024 S512x2048 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.CellSpec.lean ====
/-
  One step of a liquid time-constant cell followed by a layer normalisation, as mathematics on the extended reals.

  For a batch row with hidden state h and input x (1024 numbers each), output unit o gets
    d(o) = ( logistic(Σₖ h(k)·W_gate(o,k)) · tanh(Σₖ h(k)·W_rec(o,k) + Σₖ x(k)·W_in(o,k)) − h(o) ) · exp(−log_tau(o)),
  and the row d is then normalised: with mean μ = (Σₖ d(k)) / 1024 and variance v = (Σₖ (d(k) − μ)²) / 1024,
    out(o) = (d(o) − μ) · rsqrt(v + ε) · γ(o) + β(o).
  Every row is treated alone: no entry of the result depends on another batch row. The two literals (the width 1024 and
  ε, the single-precision number nearest 1e-5) are kept as the words both programs spell; nothing below needs their values.
-/
import Idealize.ShloMosaic.PureOps.Ideal
import Idealize.ShloMosaic.PureOps.Ideal.Laws
import Idealize.ShloMosaic.Lib.ValueIdx

noncomputable section

namespace Cert.LtcCell

open Idealize.ShloMosaic Idealize.ShloMosaic.ValueIdx

/-- The row width 1024, as the single-precision word both programs divide a row's sum by. -/
abbrev width : EReal := Ideal.ofBits .f32 0x44800000#32

/-- The single-precision word nearest 1e-5 that both programs add to a row's variance. -/
abbrev eps : EReal := Ideal.ofBits .f32 0x3727C5AC#32

/-- The cell's update of one row before normalisation, at output unit `o`: the gate (a logistic of the row against
    row `o` of the gate weights) times the tanh of the two projections added, less the old state, scaled by the inverse
    time constant. -/
def cellRow (hrow xrow : Fin 1024 → EReal) (wRec wIn wGate : Fin 1024 → Fin 1024 → EReal) (invTau : Fin 1024 → EReal)
    (o : Fin 1024) : EReal :=
  (Ideal.logistic (∑ k : Fin 1024, hrow k * wGate o k)
      * Ideal.tanh ((∑ k : Fin 1024, hrow k * wRec o k) + ∑ k : Fin 1024, xrow k * wIn o k) - hrow o) * invTau o

/-- A row's mean. -/
def rowMean (d : Fin 1024 → EReal) : EReal := Ideal.div (∑ k : Fin 1024, d k) width

/-- A row's (biased) variance about its mean. -/
def rowVar (d : Fin 1024 → EReal) : EReal :=
  Ideal.div (∑ k : Fin 1024, (d k - rowMean d) * (d k - rowMean d)) width

/-- A row centred and scaled to unit variance (up to ε). -/
def normRow (d : Fin 1024 → EReal) (o : Fin 1024) : EReal := (d o - rowMean d) * Ideal.rsqrt (rowVar d + eps)

/-- The inverse time constants `exp(−log_tau)`. -/
def invTau (logTau : (⟨1, ![1024]⟩ : Shape).Idx → EReal) (o : Fin 1024) : EReal := Ideal.exp (-(logTau (ix1 o)))

/-- Row `p` of the cell's update, from the whole argument arrays (weights are stored [out, in]). -/
def cellOf (h x : (⟨2, ![8192, 1024]⟩ : Shape).Idx → EReal) (wIn wRec wGate : (⟨2, ![1024, 1024]⟩ : Shape).Idx → EReal)
    (logTau : (⟨1, ![1024]⟩ : Shape).Idx → EReal) (p : Fin 8192) : Fin 1024 → EReal :=
  cellRow (fun k => h (ix2 p k)) (fun k => x (ix2 p k)) (fun o k => wRec (ix2 o k)) (fun o k => wIn (ix2 o k))
    (fun o k => wGate (ix2 o k)) (invTau logTau)

/-- The result at row `p`, unit `q`. -/
def cellAt (h x : (⟨2, ![8192, 1024]⟩ : Shape).Idx → EReal) (wIn wRec wGate : (⟨2, ![1024, 1024]⟩ : Shape).Idx → EReal)
    (logTau gamma beta : (⟨1, ![1024]⟩ : Shape).Idx → EReal) (p : Fin 8192) (q : Fin 1024) : EReal :=
  normRow (cellOf h x wIn wRec wGate logTau p) q * gamma (ix1 q) + beta (ix1 q)

/-- The whole result array: `cellAt` at an index's two coordinates. -/
def cellOut (h x : (⟨2, ![8192, 1024]⟩ : Shape).Idx → EReal) (wIn wRec wGate : (⟨2, ![1024, 1024]⟩ : Shape).Idx → EReal)
    (logTau gamma beta : (⟨1, ![1024]⟩ : Shape).Idx → EReal) : (⟨2, ![8192, 1024]⟩ : Shape).Idx → EReal :=
  fun i => cellAt h x wIn wRec wGate logTau gamma beta (i 0) (i 1)

theorem cellOut_ix2 (h x : (⟨2, ![8192, 1024]⟩ : Shape).Idx → EReal) (wIn wRec wGate : (⟨2, ![1024, 1024]⟩ : Shape).Idx → EReal)
    (logTau gamma beta : (⟨1, ![1024]⟩ : Shape).Idx → EReal) (p : Fin 8192) (q : Fin 1024) :
    cellOut h x wIn wRec wGate logTau gamma beta (ix2 p q) = cellAt h x wIn wRec wGate logTau gamma beta p q := rfl

/-- The single-precision word of 1.0 denotes 1: the host spells the logistic as `1 / (1 + e^(−x))` with this word. -/
theorem ofBits_one : Ideal.ofBits .f32 0x3F800000#32 = 1 := IdealRules.sign_bit.ideal_onePat .f32

/-- The logistic spelt out with the word of 1.0 is the logistic. -/
theorem logistic_spelt (s : EReal) :
    Ideal.div (Ideal.ofBits .f32 0x3F800000#32) (Ideal.ofBits .f32 0x3F800000#32 + Ideal.exp (-s)) = Ideal.logistic s := by
  rw [ofBits_one]; rfl

end Cert.LtcCell

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelRow.lean ====
/-
  What the kernel's body stores for one block of 512 batch rows, read at a row p of the block and a unit q.

  The body works on a whole block at once. It multiplies the block of states against the two recurrent weight matrices
  stacked one over the other (so columns 0..1023 of the product are the recurrent projection and columns 1024..2047 the
  gate's), multiplies the block of inputs against the input weights, and forms the update with a row vector of inverse
  time constants repeated down the rows. The normalisation sums each row, keeps the sums as a column, and repeats the
  column across the row when subtracting the mean and when scaling. Read at (p, q): a product with a zero accumulator
  is the sum over the contracted axis, a column slice of the stacked product reads the stacked weights at row q or
  1024 + q, a row sum is the sum of the row, and the column and row vectors read at the coordinate they keep. So the
  stored value is the row formula of CellSpec.lean applied to row p of the blocks.
-/
import proofs.«156705_j79877801771610_2_alg».proof.Proof.Gen.KernelIdeal.Skeleton
import proofs.«156705_j79877801771610_2_alg».proof.Proof.CellSpec
import proofs.«156705_j79877801771610_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellValue

open Cert.KernelIdeal Cert.KernelIdeal.Gen Idealize.ShloMosaic Idealize.ShloMosaic.ValueIdx
open Cert.LtcCell

/-! ## The two matrix products -/

/-- The block of states against the stacked recurrent and gate weights. -/
def stackedProd (P0 : FVec Ideal S512x1024 .f32) (P2 : FVec Ideal S2048x1024 .bf16) : FVec Ideal S512x2048 .f32 :=
  matmul dot_S512x1024_S2048x1024_S512x2048_1_1_0_0_n_n none (truncf .bf16 P0 bitsLt_bf16_f32)
    (shapeCast S2048x1024 P2 shapeCasts_S2048x1024_S2048x1024) (constant S512x2048 .f32 0x00000000#32)

/-- The block of inputs against the input weights. -/
def inputProd (P1 : FVec Ideal S512x1024 .f32) (P3 : FVec Ideal S1024x1024 .bf16) : FVec Ideal S512x1024 .f32 :=
  matmul dot_S512x1024_S1024x1024_S512x1024_1_1_0_0_n_n none (truncf .bf16 P1 bitsLt_bf16_f32)
    (shapeCast S1024x1024 P3 shapeCasts_S1024x1024_S1024x1024) (constant S512x1024 .f32 0x00000000#32)

/-! The operands' coordinates at an output index and a contraction index: the output's row on the left operand's
    first axis, its column on the right operand's first axis (both weights are stored [out, in]), the contraction index
    on each operand's second axis. -/

theorem stacked_lhs0 (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem stacked_lhs1 (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem stacked_rhs0 (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem stacked_rhs1 (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

theorem input_lhs0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem input_lhs1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem input_rhs0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem input_rhs1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- Entry (p, n) of the stacked product: row p of the states against row n of the stacked weights. -/
theorem stackedProd_apply (P0 : FVec Ideal S512x1024 .f32) (P2 : FVec Ideal S2048x1024 .bf16) (p : Fin 512) (n : Fin 2048) :
    stackedProd P0 P2 (ix2 p n) = ∑ k : Fin 1024, P0 (ix2 p k) * P2 (ix2 n k) := by
  unfold stackedProd
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p n) ((contrEquiv1 dot_S512x1024_S2048x1024_S512x2048_1_1_0_0_n_n 1024 rfl rfl).symm k) = ix2 p k :=
    funext fun a => Fin.ext (by
      match a with
      | ⟨0, _⟩ => exact stacked_lhs0 _ _
      | ⟨1, _⟩ => exact (stacked_lhs1 _ _).trans hk)
  have er : dot_S512x1024_S2048x1024_S512x2048_1_1_0_0_n_n.rhsIdx (ix2 p n) ((contrEquiv1 dot_S512x1024_S2048x1024_S512x2048_1_1_0_0_n_n 1024 rfl rfl).symm k) = ix2 n k :=
    funext fun a => Fin.ext (by
      match a with
      | ⟨0, _⟩ => exact stacked_rhs0 _ _
      | ⟨1, _⟩ => exact (stacked_rhs1 _ _).trans hk)
  rw [el, er, shapeCast_self]
  rfl

/-- Entry (p, o) of the input product: row p of the inputs against row o of the input weights. -/
theorem inputProd_apply (P1 : FVec Ideal S512x1024 .f32) (P3 : FVec Ideal S1024x1024 .bf16) (p : Fin 512) (o : Fin 1024) :
    inputProd P1 P3 (ix2 p o) = ∑ k : Fin 1024, P1 (ix2 p k) * P3 (ix2 o k) := by
  unfold inputProd
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p o) ((contrEquiv1 dot_S512x1024_S1024x1024_S512x1024_1_1_0_0_n_n 1024 rfl rfl).symm k) = ix2 p k :=
    funext fun a => Fin.ext (by
      match a with
      | ⟨0, _⟩ => exact input_lhs0 _ _
      | ⟨1, _⟩ => exact (input_lhs1 _ _).trans hk)
  have er : dot_S512x1024_S1024x1024_S512x1024_1_1_0_0_n_n.rhsIdx (ix2 p o) ((contrEquiv1 dot_S512x1024_S1024x1024_S512x1024_1_1_0_0_n_n 1024 rfl rfl).symm k) = ix2 o k :=
    funext fun a => Fin.ext (by
      match a with
      | ⟨0, _⟩ => exact input_rhs0 _ _
      | ⟨1, _⟩ => exact (input_rhs1 _ _).trans hk)
  rw [el, er, shapeCast_self]
  rfl

/-! ## The update before normalisation -/

/-- The recurrent projection: the left half of the stacked product's columns. -/
def recPart (P0 : FVec Ideal S512x1024 .f32) (P2 : FVec Ideal S2048x1024 .bf16) : FVec Ideal S512x1024 .f32 :=
  extractStridedSlice S512x1024 ![0, 0] (stackedProd P0 P2) slices_S512x2048_o0_0_S512x1024

/-- The gate's logit: the right half of the stacked product's columns. -/
def gatePart (P0 : FVec Ideal S512x1024 .f32) (P2 : FVec Ideal S2048x1024 .bf16) : FVec Ideal S512x1024 .f32 :=
  extractStridedSlice S512x1024 ![0, 1024] (stackedProd P0 P2) slices_S512x2048_o0_1024_S512x1024

/-- The inverse time constants, one row, repeated down the block's rows. -/
def tauRows (P4 : FVec Ideal S1x1024 .f32) : FVec Ideal S512x1024 .f32 :=
  broadcastTo S512x1024 (shapeCast S1x1024 P4 shapeCasts_S1x1024_S1x1024) broadcasts_S1x1024_S512x1024

/-- The block's update before normalisation. -/
def update (P0 P1 : FVec Ideal S512x1024 .f32) (P2 : FVec Ideal S2048x1024 .bf16) (P3 : FVec Ideal S1024x1024 .bf16)
    (P4 : FVec Ideal S1x1024 .f32) : FVec Ideal S512x1024 .f32 :=
  mulf (subf (mulf (logistic (gatePart P0 P2)) (tanh (addf (recPart P0 P2) (inputProd P1 P3)))) P0) (tauRows P4)

theorem recPart_apply (P0 : FVec Ideal S512x1024 .f32) (P2 : FVec Ideal S2048x1024 .bf16) (p : Fin 512) (q : Fin 1024) :
    recPart P0 P2 (ix2 p q) = ∑ k : Fin 1024, P0 (ix2 p k) * P2 (ix2 (⟨q.val, by omega⟩ : Fin 2048) k) := by
  unfold recPart
  rw [slice2_axis1_apply 0 (stackedProd P0 P2) slices_S512x2048_o0_0_S512x1024 p q ⟨q.val, by omega⟩ (Nat.zero_add _).symm,
    stackedProd_apply]

theorem gatePart_apply (P0 : FVec Ideal S512x1024 .f32) (P2 : FVec Ideal S2048x1024 .bf16) (p : Fin 512) (q : Fin 1024) :
    gatePart P0 P2 (ix2 p q) = ∑ k : Fin 1024, P0 (ix2 p k) * P2 (ix2 (⟨1024 + q.val, by omega⟩ : Fin 2048) k) := by
  unfold gatePart
  rw [slice2_axis1_apply 1024 (stackedProd P0 P2) slices_S512x2048_o0_1024_S512x1024 p q ⟨1024 + q.val, by omega⟩ rfl,
    stackedProd_apply]

theorem tauRows_apply (P4 : FVec Ideal S1x1024 .f32) (p : Fin 512) (q : Fin 1024) :
    tauRows P4 (ix2 p q) = P4 (ix2 (0 : Fin 1) q) := by
  unfold tauRows
  rw [broadcastTo_1b_ab_apply, shapeCast_self]

/-- The block's update at (p, q) is the row formula on row p of the blocks: the recurrent weights are rows 0..1023 of the
    stacked matrix, the gate weights its rows 1024..2047. -/
theorem update_apply (P0 P1 : FVec Ideal S512x1024 .f32) (P2 : FVec Ideal S2048x1024 .bf16) (P3 : FVec Ideal S1024x1024 .bf16)
    (P4 : FVec Ideal S1x1024 .f32) (p : Fin 512) (q : Fin 1024) :
    update P0 P1 P2 P3 P4 (ix2 p q)
      = cellRow (fun k => P0 (ix2 p k)) (fun k => P1 (ix2 p k)) (fun o k => P2 (ix2 (⟨o.val, by omega⟩ : Fin 2048) k))
          (fun o k => P3 (ix2 o k)) (fun o k => P2 (ix2 (⟨1024 + o.val, by omega⟩ : Fin 2048) k)) (fun o => P4 (ix2 (0 : Fin 1) o)) q := by
  show (Ideal.logistic (gatePart P0 P2 (ix2 p q)) * Ideal.tanh (recPart P0 P2 (ix2 p q) + inputProd P1 P3 (ix2 p q)) - P0 (ix2 p q))
      * tauRows P4 (ix2 p q) = _
  rw [gatePart_apply, recPart_apply, inputProd_apply, tauRows_apply]
  rfl

/-! ## The normalisation -/

/-- The sums of a block's rows, kept as a column. -/
def rowSums (d : FVec Ideal S512x1024 .f32) : FVec Ideal S512x1 .f32 :=
  shapeCast S512x1 (multiReduction .add [1] S512 d 0x00000000#32 reduces_S512x1024_S512 (.inl rfl) rfl) shapeCasts_S512_S512x1

/-- The rows' means, a column. -/
def meanCol (d : FVec Ideal S512x1024 .f32) : FVec Ideal S512x1 .f32 :=
  divf (rowSums d) (broadcast S512x1 (Scalar.ofBits .f32 0x44800000#32))

/-- The block with each row's mean subtracted. -/
def centred (d : FVec Ideal S512x1024 .f32) : FVec Ideal S512x1024 .f32 :=
  subf d (broadcastTo S512x1024 (meanCol d) broadcasts_S512x1_S512x1024)

/-- The rows' scale factors `rsqrt(variance + ε)`, a column. -/
def scaleCol (d : FVec Ideal S512x1024 .f32) : FVec Ideal S512x1 .f32 :=
  rsqrt (addf (divf (rowSums (mulf (centred d) (centred d))) (broadcast S512x1 (Scalar.ofBits .f32 0x44800000#32)))
    (broadcast S512x1 (Scalar.ofBits .f32 0x3727C5AC#32)))

/-- The block normalised row by row. -/
def normalised (d : FVec Ideal S512x1024 .f32) : FVec Ideal S512x1024 .f32 :=
  mulf (centred d) (broadcastTo S512x1024 (scaleCol d) broadcasts_S512x1_S512x1024)

/-- A row sum kept in the column is the sum of the row. -/
theorem rowSums_apply (d : FVec Ideal S512x1024 .f32) (p : Fin 512) :
    rowSums d (ix2 p (0 : Fin 1)) = ∑ k : Fin 1024, d (ix2 p k) := by
  unfold rowSums
  rw [Cert.ColumnLayout.shapeCast_a_a1_apply]
  refine (Ideal.multiReduction_add_single d 0x00000000#32 reduces_S512x1024_S512 (.inl rfl) rfl (ix1 p)).trans ?_
  refine Finset.sum_congr rfl fun k _ => congrArg d (funext fun a => Fin.ext ?_)
  match a with
  | ⟨0, _⟩ => rfl
  | ⟨1, _⟩ => rfl

theorem meanCol_apply (d : FVec Ideal S512x1024 .f32) (p : Fin 512) :
    meanCol d (ix2 p (0 : Fin 1)) = rowMean (fun k => d (ix2 p k)) := by
  show Ideal.div (rowSums d (ix2 p (0 : Fin 1))) (Ideal.ofBits .f32 0x44800000#32) = _
  rw [rowSums_apply]
  rfl

theorem centred_apply (d : FVec Ideal S512x1024 .f32) (p : Fin 512) (q : Fin 1024) :
    centred d (ix2 p q) = d (ix2 p q) - rowMean (fun k => d (ix2 p k)) := by
  show d (ix2 p q) - broadcastTo S512x1024 (meanCol d) broadcasts_S512x1_S512x1024 (ix2 p q) = _
  rw [Cert.ColumnLayout.broadcastTo_a1_ab_apply, meanCol_apply]

theorem scaleCol_apply (d : FVec Ideal S512x1024 .f32) (p : Fin 512) :
    scaleCol d (ix2 p (0 : Fin 1)) = Ideal.rsqrt (rowVar (fun k => d (ix2 p k)) + eps) := by
  show Ideal.rsqrt (Ideal.div (rowSums (mulf (centred d) (centred d)) (ix2 p (0 : Fin 1))) (Ideal.ofBits .f32 0x44800000#32)
    + Ideal.ofBits .f32 0x3727C5AC#32) = _
  rw [rowSums_apply]
  have e : ∀ k : Fin 1024, mulf (centred d) (centred d) (ix2 p k)
      = (d (ix2 p k) - rowMean (fun k => d (ix2 p k))) * (d (ix2 p k) - rowMean (fun k => d (ix2 p k))) := fun k => by
    show centred d (ix2 p k) * centred d (ix2 p k) = _
    rw [centred_apply]
  rw [Finset.sum_congr rfl fun k _ => e k]
  rfl

/-- The normalised block at (p, q) is the normalisation of its row p, at q. -/
theorem normalised_apply (d : FVec Ideal S512x1024 .f32) (p : Fin 512) (q : Fin 1024) :
    normalised d (ix2 p q) = normRow (fun k => d (ix2 p k)) q := by
  show centred d (ix2 p q) * broadcastTo S512x1024 (scaleCol d) broadcasts_S512x1_S512x1024 (ix2 p q) = _
  rw [Cert.ColumnLayout.broadcastTo_a1_ab_apply, centred_apply, scaleCol_apply]
  rfl

/-! ## The stored block -/

/-- The body's normalised value is the normalisation of its update. -/
theorem pay2_eq (P0 P1 : FVec Ideal S512x1024 .f32) (P2 : FVec Ideal S2048x1024 .bf16) (P3 : FVec Ideal S1024x1024 .bf16)
    (P4 : FVec Ideal S1x1024 .f32) : k0_pay2 (F := Ideal) P0 P1 P2 P3 P4 = normalised (update P0 P1 P2 P3 P4) := rfl

/-- What the body stores at (p, q) of the block: row p normalised, at q, times the gain at q plus the bias at q. -/
theorem stored_apply (P0 P1 : FVec Ideal S512x1024 .f32) (P2 : FVec Ideal S2048x1024 .bf16) (P3 : FVec Ideal S1024x1024 .bf16)
    (P4 P5 P6 : FVec Ideal S1x1024 .f32) (p : Fin 512) (q : Fin 1024) :
    k0_pay1 (F := Ideal) (k0_pay2 (F := Ideal) P0 P1 P2 P3 P4) P5 P6 (ix2 p q)
      = normRow (cellRow (fun k => P0 (ix2 p k)) (fun k => P1 (ix2 p k)) (fun o k => P2 (ix2 (⟨o.val, by omega⟩ : Fin 2048) k))
          (fun o k => P3 (ix2 o k)) (fun o k => P2 (ix2 (⟨1024 + o.val, by omega⟩ : Fin 2048) k)) (fun o => P4 (ix2 (0 : Fin 1) o))) q
        * P5 (ix2 (0 : Fin 1) q) + P6 (ix2 (0 : Fin 1) q) := by
  show k0_pay2 (F := Ideal) P0 P1 P2 P3 P4 (ix2 p q) * tauRows P5 (ix2 p q) + tauRows P6 (ix2 p q) = _
  rw [tauRows_apply, tauRows_apply, pay2_eq, normalised_apply]
  exact congrArg (fun d => normRow d q * P5 (ix2 (0 : Fin 1) q) + P6 (ix2 (0 : Fin 1) q))
    (funext fun k => update_apply P0 P1 P2 P3 P4 p k)

end Cert.KernelIdeal.CellValue

end
-- ==== Proof.KernelArray.lean ====
/-
  From the blocks the kernel writes to its whole result array.

  The grid has 16 points. Point t reads rows 512t .. 512t + 511 of the state and input arrays, the whole of the four
  parameter arrays the host code prepared (the recurrent and gate weights stacked one over the other; the input
  weights; the inverse time constants `exp(−log_tau)`, the gains and the biases, each laid out as one row), and writes
  rows 512t .. 512t + 511 of the result. Row p of point t's block is therefore batch row 512t + p, the stacked weights'
  row o is the recurrent weights' row o and its row 1024 + o the gate weights' row o, and what the point writes is the
  cell of CellSpec.lean on those rows. The 16 row blocks tile the result array (row r lies in block r / 512), so the
  array ends as the cell's result everywhere.
-/
import proofs.«156705_j79877801771610_2_alg».proof.Proof.Gen.KernelIdeal.Value
import proofs.«156705_j79877801771610_2_alg».proof.Proof.KernelRow
import Idealize.ShloMosaic.Lib.Pipeline.Value
import Idealize.ShloMosaic.Lib.StableHlo.Run
import Idealize.ShloMosaic.Lib.ValueLayout

noncomputable section

namespace Cert.KernelIdeal.CellValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.LtcCell

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the state, input and result windows move down the rows with
    the point, the parameter windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The batch row that row `p` of point `t`'s block is. -/
def rowOf (t : Fin cfg0.N) (p : Fin 512) : Fin 8192 :=
  ⟨512 * t.val + p.val, by have := t.isLt; have hN : cfg0.N = 16 := N_0; omega⟩

/-! ## What the host code prepared, as the region finds it -/

/-- The weights window's array: the recurrent weights stacked over the gate weights. -/
theorem stacked_eq (c : Dev nD) :
    (V m c main_v1 : FVec Ideal S2048x1024 .bf16)
      = truncf .bf16 (concatenate S2048x1024 0 [⟨S1024x1024, (m ((c : Thread nD τ).loc main_arg3) : FVec Ideal S1024x1024 .f32)⟩,
          ⟨S1024x1024, (m ((c : Thread nD τ).loc main_arg4) : FVec Ideal S1024x1024 .f32)⟩] concatenates_S1024x1024_S1024x1024_S2048x1024_d0 : FVec Ideal S2048x1024 .f32) bitsLt_bf16_f32 := by
  dsimp only [Gen.V, Gen.hostOps0]; after_results <;> rfl

/-- The input weights window's array: the input weights. -/
theorem inputW_eq (c : Dev nD) :
    (V m c main_v2 : FVec Ideal S1024x1024 .bf16)
      = (truncf .bf16 (m ((c : Thread nD τ).loc main_arg2) : FVec Ideal S1024x1024 .f32) bitsLt_bf16_f32 : FVec Ideal S1024x1024 .bf16) := by
  dsimp only [Gen.V, Gen.hostOps0]; after_results <;> rfl

/-- The inverse time constants' array: `exp(−log_tau)` laid out as one row. -/
theorem tau_eq (c : Dev nD) :
    (V m c main_v5 : FVec Ideal S1x1024 .f32)
      = (shapeCast S1x1024 (Host.exp (Host.negf (m ((c : Thread nD τ).loc main_arg5) : FVec Ideal S1024 .f32)) : FVec Ideal S1024 .f32) shapeCasts_S1024_S1x1024 : FVec Ideal S1x1024 .f32) := by
  dsimp only [Gen.V, Gen.hostOps0]; after_results <;> rfl

/-- The gains' array: the gains laid out as one row. -/
theorem gamma_eq (c : Dev nD) :
    (V m c main_v6 : FVec Ideal S1x1024 .f32)
      = (shapeCast S1x1024 (m ((c : Thread nD τ).loc main_arg6) : FVec Ideal S1024 .f32) shapeCasts_S1024_S1x1024 : FVec Ideal S1x1024 .f32) := by
  dsimp only [Gen.V, Gen.hostOps0]; after_results <;> rfl

/-- The biases' array: the biases laid out as one row. -/
theorem beta_eq (c : Dev nD) :
    (V m c main_v7 : FVec Ideal S1x1024 .f32)
      = (shapeCast S1x1024 (m ((c : Thread nD τ).loc main_arg7) : FVec Ideal S1024 .f32) shapeCasts_S1024_S1x1024 : FVec Ideal S1x1024 .f32) := by
  dsimp only [Gen.V, Gen.hostOps0]; after_results <;> rfl

/-! ## Each window's block at a point, read at coordinates -/

theorem blk0_apply (c : Dev nD) (t : Fin cfg0.N) (p : Fin 512) (k : Fin 1024) :
    (iblk m c 0 t : FVec Ideal S512x1024 .f32) (ix2 p k)
      = (m ((c : Thread nD τ).loc main_arg0) : S8192x1024.Idx → EReal) (ix2 (rowOf t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem blk1_apply (c : Dev nD) (t : Fin cfg0.N) (p : Fin 512) (k : Fin 1024) :
    (iblk m c 1 t : FVec Ideal S512x1024 .f32) (ix2 p k)
      = (m ((c : Thread nD τ).loc main_arg1) : S8192x1024.Idx → EReal) (ix2 (rowOf t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- The stacked weights' block is the whole stacked array. -/
theorem blk2_apply (c : Dev nD) (t : Fin cfg0.N) (n : Fin 2048) (k : Fin 1024) :
    (iblk m c 2 t : FVec Ideal S2048x1024 .bf16) (ix2 n k) = (V m c main_v1 : S2048x1024.Idx → EReal) (ix2 n k) := by
  obtain ⟨-, -, -, -, e0, e1, -⟩ := idx_facts t
  show V m c main_v1 (((cfg0.win 2).blk t).view.emb (ix2 n k)) = _
  refine congrArg _ (funext fun a => Fin.ext ?_)
  match a with
  | ⟨0, _⟩ => show win0_2.index t (0 : Fin 2) * 2048 + 1 * n.val = n.val; rw [e0]; omega
  | ⟨1, _⟩ => show win0_2.index t (1 : Fin 2) * 1024 + 1 * k.val = k.val; rw [e1]; omega

/-- Row `o` of the stacked weights is row `o` of the recurrent weights. -/
theorem blk2_rec (c : Dev nD) (t : Fin cfg0.N) (o k : Fin 1024) :
    (iblk m c 2 t : FVec Ideal S2048x1024 .bf16) (ix2 (⟨o.val, by omega⟩ : Fin 2048) k)
      = (m ((c : Thread nD τ).loc main_arg3) : S1024x1024.Idx → EReal) (ix2 o k) := by
  rw [blk2_apply, stacked_eq]
  show concatenate S2048x1024 0 [⟨S1024x1024, _⟩, ⟨S1024x1024, _⟩] concatenates_S1024x1024_S1024x1024_S2048x1024_d0 (ix2 (⟨o.val, by omega⟩ : Fin 2048) k) = _
  refine concatenate_pair_apply_left (t := S2048x1024) (s₁ := S1024x1024) (s₂ := S1024x1024) 0 _ _ concatenates_S1024x1024_S1024x1024_S2048x1024_d0 _ rfl (ix2 o k) fun b => ?_
  match b with
  | ⟨0, _⟩ => rfl
  | ⟨1, _⟩ => rfl

/-- Row `1024 + o` of the stacked weights is row `o` of the gate weights. -/
theorem blk2_gate (c : Dev nD) (t : Fin cfg0.N) (o k : Fin 1024) :
    (iblk m c 2 t : FVec Ideal S2048x1024 .bf16) (ix2 (⟨1024 + o.val, by omega⟩ : Fin 2048) k)
      = (m ((c : Thread nD τ).loc main_arg4) : S1024x1024.Idx → EReal) (ix2 o k) := by
  rw [blk2_apply, stacked_eq]
  show concatenate S2048x1024 0 [⟨S1024x1024, _⟩, ⟨S1024x1024, _⟩] concatenates_S1024x1024_S1024x1024_S2048x1024_d0 (ix2 (⟨1024 + o.val, by omega⟩ : Fin 2048) k) = _
  refine concatenate_pair_apply_right (t := S2048x1024) (s₁ := S1024x1024) (s₂ := S1024x1024) 0 _ _ concatenates_S1024x1024_S1024x1024_S2048x1024_d0 _ rfl rfl (ix2 o k) (fun b hb => ?_) ?_
  · match b with
    | ⟨0, _⟩ => exact absurd rfl hb
    | ⟨1, _⟩ => rfl
  · show o.val + 1024 = 1024 + o.val
    omega

theorem blk3_apply (c : Dev nD) (t : Fin cfg0.N) (o k : Fin 1024) :
    (iblk m c 3 t : FVec Ideal S1024x1024 .bf16) (ix2 o k)
      = (m ((c : Thread nD τ).loc main_arg2) : S1024x1024.Idx → EReal) (ix2 o k) := by
  obtain ⟨-, -, -, -, -, -, e0, e1, -⟩ := idx_facts t
  show V m c main_v2 (((cfg0.win 3).blk t).view.emb (ix2 o k)) = _
  rw [inputW_eq]
  show (m ((c : Thread nD τ).loc main_arg2) : S1024x1024.Idx → EReal) _ = _
  refine congrArg _ (funext fun a => Fin.ext ?_)
  match a with
  | ⟨0, _⟩ => show win0_3.index t (0 : Fin 2) * 1024 + 1 * o.val = o.val; rw [e0]; omega
  | ⟨1, _⟩ => show win0_3.index t (1 : Fin 2) * 1024 + 1 * k.val = k.val; rw [e1]; omega

theorem blk4_apply (c : Dev nD) (t : Fin cfg0.N) (o : Fin 1024) :
    (iblk m c 4 t : FVec Ideal S1x1024 .f32) (ix2 (0 : Fin 1) o) = invTau (m ((c : Thread nD τ).loc main_arg5) : S1024.Idx → EReal) o := by
  obtain ⟨-, -, -, -, -, -, -, -, e0, e1, -⟩ := idx_facts t
  show V m c main_v5 (((cfg0.win 4).blk t).view.emb (ix2 (0 : Fin 1) o)) = _
  rw [tau_eq]
  have he : ((cfg0.win 4).blk t).view.emb (ix2 (0 : Fin 1) o) = ix2 (0 : Fin 1) o := funext fun a => Fin.ext (by
    match a with
    | ⟨0, _⟩ => show win0_4.index t (0 : Fin 2) * 1 + 1 * 0 = 0; rw [e0]
    | ⟨1, _⟩ => show win0_4.index t (1 : Fin 2) * 1024 + 1 * o.val = o.val; rw [e1]; omega)
  rw [he, shapeCast_a_1a_apply]
  rfl

theorem blk5_apply (c : Dev nD) (t : Fin cfg0.N) (o : Fin 1024) :
    (iblk m c 5 t : FVec Ideal S1x1024 .f32) (ix2 (0 : Fin 1) o) = (m ((c : Thread nD τ).loc main_arg6) : S1024.Idx → EReal) (ix1 o) := by
  obtain ⟨-, -, -, -, -, -, -, -, -, -, e0, e1, -⟩ := idx_facts t
  show V m c main_v6 (((cfg0.win 5).blk t).view.emb (ix2 (0 : Fin 1) o)) = _
  rw [gamma_eq]
  have he : ((cfg0.win 5).blk t).view.emb (ix2 (0 : Fin 1) o) = ix2 (0 : Fin 1) o := funext fun a => Fin.ext (by
    match a with
    | ⟨0, _⟩ => show win0_5.index t (0 : Fin 2) * 1 + 1 * 0 = 0; rw [e0]
    | ⟨1, _⟩ => show win0_5.index t (1 : Fin 2) * 1024 + 1 * o.val = o.val; rw [e1]; omega)
  rw [he, shapeCast_a_1a_apply]

theorem blk6_apply (c : Dev nD) (t : Fin cfg0.N) (o : Fin 1024) :
    (iblk m c 6 t : FVec Ideal S1x1024 .f32) (ix2 (0 : Fin 1) o) = (m ((c : Thread nD τ).loc main_arg7) : S1024.Idx → EReal) (ix1 o) := by
  obtain ⟨-, -, -, -, -, -, -, -, -, -, -, -, e0, e1, -⟩ := idx_facts t
  show V m c main_v7 (((cfg0.win 6).blk t).view.emb (ix2 (0 : Fin 1) o)) = _
  rw [beta_eq]
  have he : ((cfg0.win 6).blk t).view.emb (ix2 (0 : Fin 1) o) = ix2 (0 : Fin 1) o := funext fun a => Fin.ext (by
    match a with
    | ⟨0, _⟩ => show win0_6.index t (0 : Fin 2) * 1 + 1 * 0 = 0; rw [e0]
    | ⟨1, _⟩ => show win0_6.index t (1 : Fin 2) * 1024 + 1 * o.val = o.val; rw [e1]; omega)
  rw [he, shapeCast_a_1a_apply]

/-- Where the result window's block at point `t` puts its entry (p, q): batch row `512t + p`, unit q. -/
theorem emb7 (t : Fin cfg0.N) (p : Fin 512) (q : Fin 1024) :
    ((cfg0.win 7).blk t).view.emb (ix2 p q) = ix2 (rowOf t p) q := by
  obtain ⟨-, -, -, -, -, -, -, -, -, -, -, -, -, -, e0, e1⟩ := idx_facts t
  refine funext fun a => Fin.ext ?_
  match a with
  | ⟨0, _⟩ => show win0_7.index t (0 : Fin 2) * 512 + 1 * p.val = 512 * t.val + p.val; rw [e0]; omega
  | ⟨1, _⟩ => show win0_7.index t (1 : Fin 2) * 1024 + 1 * q.val = q.val; rw [e1]; omega

/-! ## What a point writes, the cover, and the array after the run -/

/-- The cell's result array from the launch memory of core `c`. -/
abbrev result (c : Dev nD) : S8192x1024.Idx → EReal :=
  cellOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Point `t` writes back block `t` of the cell's result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S512x1024) hz, View.ld_unit_zero (S := S2048x1024) hz,
    View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  show k0_pay1 (F := Ideal) (k0_pay2 (F := Ideal) (iblk m c 0 t) (iblk m c 1 t) (iblk m c 2 t) (iblk m c 3 t) (iblk m c 4 t))
      (iblk m c 5 t) (iblk m c 6 t) (ix2 p q) = result m c (((cfg0.win 7).blk t).view.emb (ix2 p q))
  rw [emb7]
  refine (stored_apply (iblk m c 0 t) (iblk m c 1 t) (iblk m c 2 t) (iblk m c 3 t) (iblk m c 4 t) (iblk m c 5 t) (iblk m c 6 t) p q).trans ?_
  show _ = cellAt _ _ _ _ _ _ _ _ (rowOf t p) q
  unfold cellAt cellOf
  simp only [blk0_apply m c t, blk1_apply m c t, blk2_rec m c t, blk2_gate m c t, blk3_apply m c t, blk4_apply m c t,
    blk5_apply m c t, blk6_apply m c t]

/-- An index of the result array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v8).slice (win0_7.rect t)).set ↔ _
  rw [View.set_slice_whole, Rect.mem_set_unit]
  exact Iff.rfl

/-- Every index of the result array lies in some point's block: row `r` in the block of point `r / 512`. -/
theorem covered (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  let t : Fin cfg0.N := ⟨(i 0).val / 512, by omega⟩
  obtain ⟨-, -, -, -, -, -, -, -, -, -, -, -, -, -, e0, e1⟩ := idx_facts t
  have ht : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 1024 ≤ (i 1).val ∧ (i 1).val < win0_7.index t (1 : Fin 2) * 1024 + 1024; rw [e1]; omega

/-- The result array after the run is the cell's result. -/
theorem final (c : Dev nD) : (dats m 0 c).arrAt 7 cfg0.N = result m c :=
  (dats m 0 c).arrAt_eq_of_cover 7 (result m c) (fun t _ => flushed_eq m c t) covered

/-- The kernel's run, read: the result array at the cell's result of the launch arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.CellValue

end
-- ==== Proof.RefCell.lean ====
/-
  The reference program's result, read one operation at a time, is the cell of CellSpec.lean.

  The reference computes every row at once with whole-array operations: three products of the batch against the
  transposed weight matrices (each a sum over the contracted axis), the logistic spelt as 1 / (1 + e^(−x)), the row sums
  as reductions along the hidden axis started from 0, and the per-row and per-unit vectors spread over the array by
  broadcasts. Read at row p and unit q each of these is the corresponding term of the row's formula: a broadcast reads
  its operand at the coordinate it keeps, a row sum started from 0 is the sum, and the spelt logistic is the logistic.
-/
import proofs.«156705_j79877801771610_2_alg».proof.Proof.Gen.ReferenceIdeal.Read
import proofs.«156705_j79877801771610_2_alg».proof.Proof.CellSpec

noncomputable section

namespace Cert.ReferenceIdeal.RefValue

open Cert.ReferenceIdeal Cert.ReferenceIdeal.Gen Cert.ReferenceIdeal.Read Idealize.ShloMosaic Idealize.ShloMosaic.ValueIdx
open Cert.LtcCell

/-- Two index functions of a rank-2 shape agree when their coordinates do. -/
macro "coords2" : tactic => `(tactic| (funext a; match a with | ⟨0, _⟩ => rfl | ⟨1, _⟩ => rfl))
macro "coords1" : tactic => `(tactic| (funext a; match a with | ⟨0, _⟩ => rfl))

/-! ## Where each operation reads its operands, at row `p` and unit `q` -/

theorem lidx0 (p : Fin 8192) (q k : Fin 1024) : lidx_main_v0 (ix2 p q) k = ix2 p k := by coords2
theorem ridx0 (p : Fin 8192) (q k : Fin 1024) : ridx_main_v0 (ix2 p q) k = ix2 q k := by coords2
theorem lidx1 (p : Fin 8192) (q k : Fin 1024) : lidx_main_v1 (ix2 p q) k = ix2 p k := by coords2
theorem ridx1 (p : Fin 8192) (q k : Fin 1024) : ridx_main_v1 (ix2 p q) k = ix2 q k := by coords2
theorem lidx3 (p : Fin 8192) (q k : Fin 1024) : lidx_main_v3 (ix2 p q) k = ix2 p k := by coords2
theorem ridx3 (p : Fin 8192) (q k : Fin 1024) : ridx_main_v3 (ix2 p q) k = ix2 q k := by coords2
theorem idx16 (p : Fin 8192) (q : Fin 1024) : idx_main_v16 (ix2 p q) = ix2 (0 : Fin 1) q := by coords2
theorem idx15 (q : Fin 1024) : idx_main_v15 (ix2 (0 : Fin 1) q) = ix1 q := by coords1
theorem idx37 (p : Fin 8192) (q : Fin 1024) : idx_main_v37 (ix2 p q) = ix2 (0 : Fin 1) q := by coords2
theorem idx36 (q : Fin 1024) : idx_main_v36 (ix2 (0 : Fin 1) q) = ix1 q := by coords1
theorem idx40 (p : Fin 8192) (q : Fin 1024) : idx_main_v40 (ix2 p q) = ix2 (0 : Fin 1) q := by coords2
theorem idx39 (q : Fin 1024) : idx_main_v39 (ix2 (0 : Fin 1) q) = ix1 q := by coords1
theorem idx18 (p : Fin 8192) (k : Fin 1024) : idx_main_v18 (ix1 p) k = ix2 p k := by coords2
theorem idx25 (p : Fin 8192) (k : Fin 1024) : idx_main_v25 (ix1 p) k = ix2 p k := by coords2
theorem idx19 (p : Fin 8192) : idx_main_v19 (ix2 p (0 : Fin 1)) = ix1 p := by coords1
theorem idx26 (p : Fin 8192) : idx_main_v26 (ix2 p (0 : Fin 1)) = ix1 p := by coords1
theorem idx22 (p : Fin 8192) (q : Fin 1024) : idx_main_v22 (ix2 p q) = ix2 p (0 : Fin 1) := by coords2
theorem idx29 (p : Fin 8192) (q : Fin 1024) : idx_main_v29 (ix2 p q) = ix2 p (0 : Fin 1) := by coords2
theorem idx34 (p : Fin 8192) (q : Fin 1024) : idx_main_v34 (ix2 p q) = ix2 p (0 : Fin 1) := by coords2

section
variable (x0 x1 : (⟨S8192x1024, .f32⟩ : BufTy).Contents (Elt Ideal)) (x2 x3 x4 : (⟨S1024x1024, .f32⟩ : BufTy).Contents (Elt Ideal))
  (x5 x6 x7 : (⟨S1024, .f32⟩ : BufTy).Contents (Elt Ideal))

/-- The inverse time constant spread over the array reads, at (p, q), `exp(−log_tau q)`. -/
theorem tau_apply (p : Fin 8192) (q : Fin 1024) : val_main_v16 (F := Ideal) x5 (ix2 p q) = invTau x5 q := by
  rw [val_main_v16_apply, idx16, val_main_v15_apply, idx15, val_main_v14_apply, val_main_v13_apply]
  rfl

/-- The update before normalisation, at (p, q), is the row formula of row `p` at unit `q`. -/
theorem pre_apply (p : Fin 8192) (q : Fin 1024) :
    val_main_v17 (F := Ideal) x0 x1 x2 x3 x4 x5 (ix2 p q) = cellOf x0 x1 x2 x3 x4 x5 p q := by
  rw [val_main_v17_apply, tau_apply, val_main_v12_apply, val_main_v11_apply, val_main_v9_apply, val_main_v8_apply,
    val_main_cst_0_apply, val_main_v7_apply, val_main_v6_apply, val_main_cst_apply, val_main_v5_apply, val_main_v4_apply,
    val_main_v3_apply, val_main_v10_apply, val_main_v2_apply, val_main_v0_apply, val_main_v1_apply]
  simp only [lidx0, ridx0, lidx1, ridx1, lidx3, ridx3]
  exact congrArg (fun g => (g * Ideal.tanh ((∑ k : Fin 1024, x0 (ix2 p k) * x3 (ix2 q k)) + ∑ k : Fin 1024, x1 (ix2 p k) * x2 (ix2 q k))
    - x0 (ix2 p q)) * invTau x5 q) (logistic_spelt (∑ k : Fin 1024, x0 (ix2 p k) * x4 (ix2 q k)))

/-- The row means kept as a column: at (p, 0), the mean of row `p`. -/
theorem mean_apply (p : Fin 8192) :
    val_main_v21 (F := Ideal) x0 x1 x2 x3 x4 x5 (ix2 p (0 : Fin 1)) = rowMean (cellOf x0 x1 x2 x3 x4 x5 p) := by
  rw [val_main_v21_apply, val_main_v19_apply, idx19, val_main_v18_apply, val_main_cst_1_apply, val_main_v20_apply, val_main_cst_2_apply]
  simp only [idx18, pre_apply]
  show Ideal.div (Ideal.ofBits .f32 0x00000000#32 + _) _ = _
  rw [Ideal.ofBits_zero_f32, zero_add]
  rfl

/-- The row variances kept as a column: at (p, 0), the variance of row `p`. -/
theorem var_apply (p : Fin 8192) :
    val_main_v28 (F := Ideal) x0 x1 x2 x3 x4 x5 (ix2 p (0 : Fin 1)) = rowVar (cellOf x0 x1 x2 x3 x4 x5 p) := by
  rw [val_main_v28_apply, val_main_v26_apply, idx26, val_main_v25_apply, val_main_cst_3_apply, val_main_v27_apply, val_main_cst_4_apply]
  simp only [idx25, val_main_v24_apply, val_main_v23_apply, val_main_v22_apply, idx22, mean_apply, pre_apply]
  show Ideal.div (Ideal.ofBits .f32 0x00000000#32 + _) _ = _
  rw [Ideal.ofBits_zero_f32, zero_add]
  rfl

/-- The normalised update at (p, q). -/
theorem norm_apply (p : Fin 8192) (q : Fin 1024) :
    val_main_v35 (F := Ideal) x0 x1 x2 x3 x4 x5 (ix2 p q) = normRow (cellOf x0 x1 x2 x3 x4 x5 p) q := by
  rw [val_main_v35_apply, val_main_v30_apply, val_main_v29_apply, idx29, mean_apply, pre_apply, val_main_v34_apply, idx34,
    val_main_v33_apply, val_main_v32_apply, var_apply, val_main_v31_apply, val_main_cst_5_apply]
  rfl

/-- The reference's result at (p, q). -/
theorem out_apply (p : Fin 8192) (q : Fin 1024) :
    val_main_v41 (F := Ideal) x0 x1 x2 x3 x4 x5 x6 x7 (ix2 p q) = cellAt x0 x1 x2 x3 x4 x5 x6 x7 p q := by
  rw [val_main_v41_apply, val_main_v38_apply, norm_apply, val_main_v37_apply, idx37, val_main_v36_apply, idx36,
    val_main_v40_apply, idx40, val_main_v39_apply, idx39]
  rfl

/-- The reference's result array is the cell's. -/
theorem out_eq : val_main_v41 (F := Ideal) x0 x1 x2 x3 x4 x5 x6 x7 = cellOut x0 x1 x2 x3 x4 x5 x6 x7 := by
  funext i
  obtain ⟨p, q, rfl⟩ : ∃ (p : Fin 8192) (q : Fin 1024), i = ix2 p q := ⟨i 0, i 1, eq_ix2 i⟩
  exact out_apply x0 x1 x2 x3 x4 x5 x6 x7 p q

end

end Cert.ReferenceIdeal.RefValue

end
-- ==== Proof.lean ====
/-
  The kernel and the reference compute one function.

  The claim has five parts. Three say that a program runs to the end without a fault and leaves its arguments as they
  were: for the kernel as printed and as idealised this is the generated frame; for the reference it is its generated
  run with the result dropped. The idealisation rewrote nothing, so the fourth part is trivial. The fifth is the
  mathematics: over the extended reals both programs end with the liquid time-constant cell of Proof/CellSpec.lean —
  for every batch row, the gated tanh update scaled by the inverse time constants, then normalised along the row,
  scaled by the gains and shifted by the biases. The kernel reaches it block by block (Proof/KernelRow.lean for one
  block, Proof/KernelArray.lean for the blocks tiling the array), the reference with whole-array operations
  (Proof/RefCell.lean). The two differ only in how the same sums and the same logistic are spelt — a matrix product with
  a zero accumulator against a dot product, a fused product cut in two against two products, the logistic as one
  operation against 1 / (1 + e^(−x)) — never in the order of a non-associative step, so no property of the inputs is used.
-/
import proofs.«156705_j79877801771610_2_alg».proof.Defs
import proofs.«156705_j79877801771610_2_alg».proof.Proof.Gen.Kernel
import proofs.«156705_j79877801771610_2_alg».proof.Proof.Gen.Kernel.Skeleton
import proofs.«156705_j79877801771610_2_alg».proof.Proof.Gen.Kernel.Launch
import proofs.«156705_j79877801771610_2_alg».proof.Proof.Gen.Kernel.Points
import proofs.«156705_j79877801771610_2_alg».proof.Proof.Gen.Kernel.Frame
import proofs.«156705_j79877801771610_2_alg».proof.Proof.Gen.KernelIdeal
import proofs.«156705_j79877801771610_2_alg».proof.Proof.Gen.KernelIdeal.Skeleton
import proofs.«156705_j79877801771610_2_alg».proof.Proof.Gen.KernelIdeal.Launch
import proofs.«156705_j79877801771610_2_alg».proof.Proof.Gen.KernelIdeal.Points
import proofs.«156705_j79877801771610_2_alg».proof.Proof.Gen.KernelIdeal.Frame
import proofs.«156705_j79877801771610_2_alg».proof.Proof.Gen.ReferenceIdeal
import proofs.«156705_j79877801771610_2_alg».proof.Proof.Gen.Pre_finite_inputs
import proofs.«156705_j79877801771610_2_alg».proof.Proof.Gen.KernelIdeal.Value
import proofs.«156705_j79877801771610_2_alg».proof.Proof.Gen.ReferenceIdeal.Run
import proofs.«156705_j79877801771610_2_alg».proof.Proof.Gen.ReferenceIdeal.Read
import proofs.«156705_j79877801771610_2_alg».proof.Proof.KernelArray
import proofs.«156705_j79877801771610_2_alg».proof.Proof.RefCell
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealised kernel runs and keeps its arguments. -/
theorem frame_ideal : Cert.frame_KernelIdeal := fun m ρ _ => Cert.KernelIdeal.Gen.frame m ρ

/-- The reference runs and keeps its arguments: its run, the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- Nothing was rewritten on the way to the idealised kernel. -/
theorem preserves : Cert.preserves_Kernel_KernelIdeal := trivial

/-- From memories that agree on the eight arguments, both programs end with the cell's result of those arguments. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v41_eq, Cert.ReferenceIdeal.RefValue.out_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_ideal, frame_ref, preserves, algebraic⟩

end Cert.Proof

end
